-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : FVec F S128x128 .f32) (main_arg2 : FVec F S128 .f32) (main_arg3 : FVec F S128x128 .f32) (main_arg4 : FVec F S128 .f32) (main_arg5 : IVec S1600000 32) (main_arg6 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩

abbrev nBuf : Space → Nat
  | .hbm => 25
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S1600000, .i32⟩
  | .hbm, ⟨6, _⟩ => ⟨S1600000, .i32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S_, .f32⟩
  | .hbm, ⟨17, _⟩ => ⟨S100000x128, .f32⟩
  | .hbm, ⟨18, _⟩ => ⟨S1600000x1, .i32⟩
  | .hbm, ⟨19, _⟩ => ⟨S100000x128, .f32⟩
  | .hbm, ⟨20, _⟩ => ⟨S128x128, .bf16⟩
  | .hbm, ⟨21, _⟩ => ⟨S128x128, .bf16⟩
  | .hbm, ⟨22, _⟩ => ⟨S1x128, .f32⟩
  | .hbm, ⟨23, _⟩ => ⟨S1x128, .f32⟩
  | .hbm, ⟨24, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bitsLt_bf16_f32 : FTy.bits .bf16 < FTy.bits .f32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 35
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S1600000, .i32⟩
  | .hbm, ⟨6, _⟩ => ⟨S1600000, .i32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S_, .f32⟩
  | .hbm, ⟨17, _⟩ => ⟨S100000x128, .f32⟩
  | .hbm, ⟨18, _⟩ => ⟨S1600000x1, .i32⟩
  | .hbm, ⟨19, _⟩ => ⟨S100000x128, .f32⟩
  | .hbm, ⟨20, _⟩ => ⟨S_, .f32⟩
  | .hbm, ⟨21, _⟩ => ⟨S100000x128, .f32⟩
  | .hbm, ⟨22, _⟩ => ⟨S100000x128, .f32⟩
  | .hbm, ⟨23, _⟩ => ⟨S100000x128, .f32⟩
  | .hbm, ⟨24, _⟩ => ⟨S100000x128, .f32⟩
  | .hbm, ⟨25, _⟩ => ⟨S1x128, .f32⟩
  | .hbm, ⟨26, _⟩ => ⟨S100000x128, .f32⟩
  | .hbm, ⟨27, _⟩ => ⟨S100000x128, .f32⟩
  | .hbm, ⟨28, _⟩ => ⟨S_, .f32⟩
  | .hbm, ⟨29, _⟩ => ⟨S100000x128, .f32⟩
  | .hbm, ⟨30, _⟩ => ⟨S100000x128, .f32⟩
  | .hbm, ⟨31, _⟩ => ⟨S100000x128, .f32⟩
  | .hbm, ⟨32, _⟩ => ⟨S1x128, .f32⟩
  | .hbm, ⟨33, _⟩ => ⟨S100000x128, .f32⟩
  | .hbm, ⟨34, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Mlp.lean ====
/-
  The two-layer perceptron that both programs apply to each row, as one function on the extended reals.

  A row of the result depends on the same row of the node features `x` and of the aggregated neighbour
  features `a`, and on nothing else of those two arrays: with `h j = 1 · x j + a j`,

      out q = (∑ k, max ((∑ j, h j · w₁ j k) + c₁ k) 0 · w₂ k q) + c₂ q .

  The literals `1` and `0` are kept as the binary words both programs carry; they are never evaluated, because
  the same word stands at the same place on both sides.
-/
import Idealize.ShloMosaic.PureOps.Ideal
import Idealize.ShloMosaic.Lib.ValueIdx

noncomputable section

namespace Cert.GinMlp

open Idealize.ShloMosaic Idealize.ShloMosaic.ValueIdx

/-- The word of `1.0` read as an extended real. -/
abbrev one : EReal := Ideal.ofBits .f32 0x3F800000#32
/-- The word of `0.0` read as an extended real. -/
abbrev zero : EReal := Ideal.ofBits .f32 0x00000000#32

/-- One row through the perceptron: `xr`, `ar` the row of the features and of the aggregate, `w₁`, `w₂` the two
    weight matrices, `c₁`, `c₂` the two biases, `q` the output column. -/
def mlpRow (xr ar : Fin 128 → EReal) (w₁ w₂ : Fin 128 → Fin 128 → EReal) (c₁ c₂ : Fin 128 → EReal) (q : Fin 128) : EReal :=
  (∑ k : Fin 128, max ((∑ j : Fin 128, (one * xr j + ar j) * w₁ j k) + c₁ k) zero * w₂ k q) + c₂ q

/-- The whole result array: row `r`, column `q` is the perceptron of row `r` of `X` and of `A`. -/
def out (X A : (⟨2, ![100000, 128]⟩ : Shape).Idx → EReal) (W₁ W₂ : (⟨2, ![128, 128]⟩ : Shape).Idx → EReal)
    (c₁ c₂ : Fin 128 → EReal) : (⟨2, ![100000, 128]⟩ : Shape).Idx → EReal :=
  fun i => mlpRow (fun j => X (ix2 ⟨(i 0).val, (i 0).isLt⟩ j)) (fun j => A (ix2 ⟨(i 0).val, (i 0).isLt⟩ j))
    (fun j k => W₁ (ix2 j k)) (fun k q => W₂ (ix2 k q)) c₁ c₂ ⟨(i 1).val, (i 1).isLt⟩

theorem out_apply (X A : (⟨2, ![100000, 128]⟩ : Shape).Idx → EReal) (W₁ W₂ : (⟨2, ![128, 128]⟩ : Shape).Idx → EReal)
    (c₁ c₂ : Fin 128 → EReal) (r : Fin 100000) (q : Fin 128) :
    out X A W₁ W₂ c₁ c₂ (ix2 r q)
      = mlpRow (fun j => X (ix2 r j)) (fun j => A (ix2 r j)) (fun j k => W₁ (ix2 j k)) (fun k q => W₂ (ix2 k q)) c₁ c₂ q := rfl

end Cert.GinMlp

end
-- ==== Proof.LibMatDot.lean ====
/-
  A matrix product of two rank-2 operands, `x · y`, read at an entry.

  For dimension numbers `d` over operands of shapes [M, K] and [K, N] and a result of shape [M, N] whose one
  contracted axis is the second of the left operand and the first of the right — given as the four coordinate
  facts of `d`'s operand index maps — a `tpu.matmul` into the zero accumulator at the ideal instance is, at
  entry (p, q),

      Σ_{k < K} lhs[p, k] · rhs[k, q].

  The contraction's index type is re-indexed to `Fin K` through `ValueIdx.contrEquiv1`.
-/
import Idealize.ShloMosaic.PureOps.Ideal.Laws
import Idealize.ShloMosaic.Lib.ValueIdx

noncomputable section

open scoped BigOperators

namespace Idealize.ShloMosaic.ValueIdx

open Idealize.ShloMosaic

/-- `x · y` into the zero accumulator, at entry (p, q): the sum over the shared axis of the products of row `p` of
    the left operand and column `q` of the right. The hypotheses say where the record's operand index maps read:
    the left operand at (row of the entry, contraction position), the right at (contraction position, column of
    the entry). -/
theorem mat_dot_zero {M N K : Nat} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (j : (⟨2, ![M, N]⟩ : Shape).Idx) (c : d.contr.Idx), (d.lhsIdx j c 0).val = (j 0).val)
    (hl1 : ∀ (j : (⟨2, ![M, N]⟩ : Shape).Idx) (c : d.contr.Idx), (d.lhsIdx j c 1).val = (c ⟨0, by omega⟩).val)
    (hr0 : ∀ (j : (⟨2, ![M, N]⟩ : Shape).Idx) (c : d.contr.Idx), (d.rhsIdx j c 0).val = (c ⟨0, by omega⟩).val)
    (hr1 : ∀ (j : (⟨2, ![M, N]⟩ : Shape).Idx) (c : d.contr.Idx), (d.rhsIdx j c 1).val = (j 1).val)
    (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Idealize.ShloMosaic.ValueIdx

end
-- ==== Proof.Body.lean ====
/-
  What the kernel body stores at one entry of its block.

  The body loads a block of 5000 rows of the features and of the aggregate, and the two weight matrices and two
  bias rows whole. Its one store is, at row `p` and column `q` of the block, the perceptron of row `p` of the two
  loaded blocks: the sum `1 · x + a`, the first product with the bias row added, the maximum with zero, the second
  product with the second bias row added. At the ideal instance the two roundings to the short format are the
  identity, each matrix-unit product into the zero accumulator is the plain sum of products over the shared axis,
  and the bias row spread over the rows reads its column.
-/
import proofs.«131151_j69123203662130_2_alg».proof.Proof.Gen.KernelIdeal.Skeleton
import proofs.«131151_j69123203662130_2_alg».proof.Proof.Mlp
import proofs.«131151_j69123203662130_2_alg».proof.Proof.LibMatDot
import Idealize.ShloMosaic.Lib.Pipeline.Value
import Idealize.ShloMosaic.Lib.ValueIdx
import Idealize.ShloMosaic.Lib.ValueLayout
import Idealize.ShloMosaic.PureOps.Ideal.Laws

noncomputable section

namespace Cert.GinMlp.Body

open Cert.KernelIdeal Cert.KernelIdeal.Gen Idealize.ShloMosaic Idealize.ShloMosaic.ValueIdx Cert.GinMlp

/-- The body's product: a block of rows times a square matrix, contracting the rows' second axis with the matrix's first. -/
abbrev dotRec := dot_S5000x128_S128x128_S5000x128_1_0_0_1_n_n

theorem dot_l0 (j : S5000x128.Idx) (c : dotRec.contr.Idx) : (dotRec.lhsIdx j c 0).val = (j 0).val := by
  unfold DotDims.lhsIdx
  rw [dif_neg (show ¬(0 : Fin S5000x128.rank) ∈ dotRec.lhsBatch by decide),
    dif_pos (show (0 : Fin S5000x128.rank) ∈ dotRec.lhsNonContracting by decide)]
  rfl
theorem dot_l1 (j : S5000x128.Idx) (c : dotRec.contr.Idx) : (dotRec.lhsIdx j c 1).val = (c ⟨0, by decide⟩).val :=
  dotRec.lhsIdx_val_of_single rfl j c
theorem dot_r0 (j : S5000x128.Idx) (c : dotRec.contr.Idx) : (dotRec.rhsIdx j c 0).val = (c ⟨0, by decide⟩).val :=
  dotRec.rhsIdx_val_of_single rfl j c
theorem dot_r1 (j : S5000x128.Idx) (c : dotRec.contr.Idx) : (dotRec.rhsIdx j c 1).val = (j 1).val := by
  unfold DotDims.rhsIdx
  rw [dif_neg (show ¬(1 : Fin S128x128.rank) ∈ dotRec.rhsBatch by decide),
    dif_pos (show (1 : Fin S128x128.rank) ∈ dotRec.rhsNonContracting by decide)]
  rfl

/-- The body's product into the zero accumulator, at entry (p, q): row `p` of the left operand against column `q`
    of the right. -/
theorem matmul_entry {φ₁ φ₂ : FTy} (lhs : FVec Ideal S5000x128 φ₁) (rhs : FVec Ideal S128x128 φ₂) (p : Fin 5000) (q : Fin 128) :
    matmul dotRec none lhs rhs (constant (F := Ideal) S5000x128 .f32 0x00000000#32) (ix2 p q)
      = ∑ k : Fin 128, lhs (ix2 p k) * rhs (ix2 k q) :=
  mat_dot_zero dotRec none rfl rfl dot_l0 dot_l1 dot_r0 dot_r1 lhs rhs p q

/-- THE STORED VALUE AT AN ENTRY: the perceptron of row `p` of the two loaded blocks, at column `q`. -/
theorem pay_apply (x0 x1 : Vec Ideal S5000x128 .f32) (x2 : Vec Ideal S128x128 .bf16) (x3 : Vec Ideal S1x128 .f32)
    (x4 : Vec Ideal S128x128 .bf16) (x5 : Vec Ideal S1x128 .f32) (p : Fin 5000) (q : Fin 128) :
    k0_pay1 x0 x1 x2 x3 x4 x5 (ix2 p q)
      = mlpRow (fun j => x0 (ix2 p j)) (fun j => x1 (ix2 p j)) (fun j k => x2 (ix2 j k)) (fun k q => x4 (ix2 k q))
          (fun k => x3 (ix2 (0 : Fin 1) k)) (fun k => x5 (ix2 (0 : Fin 1) k)) q := by
  unfold k0_pay1 mlpRow
  simp only [shapeCast_self]
  rw [addf_apply, matmul_entry, broadcastTo_1b_ab_apply]
  refine congrArg (· + x5 (ix2 (0 : Fin 1) q)) (Finset.sum_congr rfl fun k _ => ?_)
  rw [truncf_apply, maximumf_apply, addf_apply, matmul_entry, broadcastTo_1b_ab_apply, broadcast_apply]
  refine congrArg (fun s => max (s + x3 (ix2 (0 : Fin 1) k)) _ * x4 (ix2 k q)) (Finset.sum_congr rfl fun j _ => ?_)
  rw [truncf_apply, addf_apply, mulf_apply, broadcast_apply]
  rfl

/-- THE STORED VALUE AGAINST WHOLE ARRAYS: if row `p` of the two loaded row blocks is row `r` of two whole arrays `X`,
    `A`, and the loaded matrices and bias rows are `W₁`, `W₂`, `B₁`, `B₂` where the perceptron reads them, then the
    stored value at (p, q) is the whole-array result at (r, q). -/
theorem block_entry (X A : (⟨2, ![100000, 128]⟩ : Shape).Idx → EReal) (W₁ W₂ : (⟨2, ![128, 128]⟩ : Shape).Idx → EReal)
    (B₁ B₂ : (⟨2, ![1, 128]⟩ : Shape).Idx → EReal)
    (x0 x1 : Vec Ideal S5000x128 .f32) (x2 : Vec Ideal S128x128 .bf16) (x3 : Vec Ideal S1x128 .f32)
    (x4 : Vec Ideal S128x128 .bf16) (x5 : Vec Ideal S1x128 .f32) (p : Fin 5000) (q : Fin 128) (r : Fin 100000)
    (h0 : ∀ j : Fin 128, x0 (ix2 p j) = X (ix2 r j)) (h1 : ∀ j : Fin 128, x1 (ix2 p j) = A (ix2 r j))
    (h2 : ∀ j k : Fin 128, x2 (ix2 j k) = W₁ (ix2 j k)) (h3 : ∀ k : Fin 128, x3 (ix2 (0 : Fin 1) k) = B₁ (ix2 (0 : Fin 1) k))
    (h4 : ∀ j k : Fin 128, x4 (ix2 j k) = W₂ (ix2 j k)) (h5 : ∀ k : Fin 128, x5 (ix2 (0 : Fin 1) k) = B₂ (ix2 (0 : Fin 1) k)) :
    k0_pay1 x0 x1 x2 x3 x4 x5 (ix2 p q)
      = out X A W₁ W₂ (fun k => B₁ (ix2 (0 : Fin 1) k)) (fun k => B₂ (ix2 (0 : Fin 1) k)) (ix2 r q) := by
  rw [pay_apply, out_apply]
  have e0 : (fun j : Fin 128 => x0 (ix2 p j)) = fun j => X (ix2 r j) := funext h0
  have e1 : (fun j : Fin 128 => x1 (ix2 p j)) = fun j => A (ix2 r j) := funext h1
  have e2 : (fun j k : Fin 128 => x2 (ix2 j k)) = fun j k => W₁ (ix2 j k) := funext fun j => funext (h2 j)
  have e3 : (fun k : Fin 128 => x3 (ix2 (0 : Fin 1) k)) = fun k => B₁ (ix2 (0 : Fin 1) k) := funext h3
  have e4 : (fun j k : Fin 128 => x4 (ix2 j k)) = fun j k => W₂ (ix2 j k) := funext fun j => funext (h4 j)
  have e5 : (fun k : Fin 128 => x5 (ix2 (0 : Fin 1) k)) = fun k => B₂ (ix2 (0 : Fin 1) k) := funext h5
  rw [e0, e1, e2, e3, e4, e5]

end Cert.GinMlp.Body

end
-- ==== Proof.Blocks.lean ====
/-
  Where each window's block sits in its array.

  A window's block at grid point `t`, read at a position inside the block, is the window's array read at
  (block index × block size + position) on each axis. For the two row-blocked inputs (the features and the aggregate)
  the block index is `(t, 0)`, so row `p` of the block is row `5000 t + p` of the array; the two weight matrices and the
  two bias rows are staged whole, at block index `(0, 0)`, so a position of the block is the same position of the array.
  The arrays are any family `W` of buffer contents: nothing here looks inside them.
-/
import proofs.«131151_j69123203662130_2_alg».proof.Proof.Gen.KernelIdeal.Frame
import Idealize.ShloMosaic.Lib.ValueIdx

noncomputable section

namespace Cert.GinMlp.Blocks

open Cert.KernelIdeal Cert.KernelIdeal.Gen Idealize.ShloMosaic Idealize.ShloMosaic.TcCoe Idealize.SL.Sem
open Idealize.ShloMosaic.ValueIdx

variable (c : Dev nD) (W : (b : Ref sig .tc) → Buf (Elt Ideal) ((c : Thread nD τ).loc b)) (t : Fin cfg0.N)

/-- The block of the features at point `t`, read at (p, j), is the array read where the block's rectangle puts (p, j). -/
theorem read_features (p : Fin 5000) (j : Fin 128) :
    View.read (Elt Ideal) ((cfg0.win 0).blk t).view (W (Pipeline.arrRef spec0 0)) (ix2 p j)
      = W main_arg0 (((cfg0.win 0).blk t).view.emb (ix2 p j)) := rfl
theorem row_features (p : Fin 5000) (j : Fin 128) :
    ((((cfg0.win 0).blk t).view.emb (ix2 p j)) (0 : Fin 2)).val = win0_0.index t (0 : Fin 2) * 5000 + 1 * p.val := rfl
theorem col_features (p : Fin 5000) (j : Fin 128) :
    ((((cfg0.win 0).blk t).view.emb (ix2 p j)) (1 : Fin 2)).val = win0_0.index t (1 : Fin 2) * 128 + 1 * j.val := rfl

/-- Row `p` of the block of the features at point `t` is row `5000 t + p` of the array. -/
theorem features_at (p : Fin 5000) (j : Fin 128) (h0 : win0_0.index t (0 : Fin 2) = t.val) (h1 : win0_0.index t (1 : Fin 2) = 0)
    (hr : t.val * 5000 + p.val < 100000) :
    View.read (Elt Ideal) ((cfg0.win 0).blk t).view (W (Pipeline.arrRef spec0 0)) (ix2 p j)
      = W main_arg0 (ix2 (⟨t.val * 5000 + p.val, hr⟩ : Fin 100000) j) :=
  (read_features c W t p j).trans (congrArg (W main_arg0) (funext fun a => Fin.ext (by
    match a with
    | ⟨0, _⟩ => exact (row_features t p j).trans (by rw [h0]; show t.val * 5000 + 1 * p.val = t.val * 5000 + p.val; omega)
    | ⟨1, _⟩ => exact (col_features t p j).trans (by rw [h1]; show 0 * 128 + 1 * j.val = j.val; omega))))

/-- The block of the aggregate at point `t`, read at (p, j), is the array read where the block's rectangle puts (p, j). -/
theorem read_aggregate (p : Fin 5000) (j : Fin 128) :
    View.read (Elt Ideal) ((cfg0.win 1).blk t).view (W (Pipeline.arrRef spec0 1)) (ix2 p j)
      = W main_v9 (((cfg0.win 1).blk t).view.emb (ix2 p j)) := rfl
theorem row_aggregate (p : Fin 5000) (j : Fin 128) :
    ((((cfg0.win 1).blk t).view.emb (ix2 p j)) (0 : Fin 2)).val = win0_1.index t (0 : Fin 2) * 5000 + 1 * p.val := rfl
theorem col_aggregate (p : Fin 5000) (j : Fin 128) :
    ((((cfg0.win 1).blk t).view.emb (ix2 p j)) (1 : Fin 2)).val = win0_1.index t (1 : Fin 2) * 128 + 1 * j.val := rfl

/-- Row `p` of the block of the aggregate at point `t` is row `5000 t + p` of the array. -/
theorem aggregate_at (p : Fin 5000) (j : Fin 128) (h0 : win0_1.index t (0 : Fin 2) = t.val) (h1 : win0_1.index t (1 : Fin 2) = 0)
    (hr : t.val * 5000 + p.val < 100000) :
    View.read (Elt Ideal) ((cfg0.win 1).blk t).view (W (Pipeline.arrRef spec0 1)) (ix2 p j)
      = W main_v9 (ix2 (⟨t.val * 5000 + p.val, hr⟩ : Fin 100000) j) :=
  (read_aggregate c W t p j).trans (congrArg (W main_v9) (funext fun a => Fin.ext (by
    match a with
    | ⟨0, _⟩ => exact (row_aggregate t p j).trans (by rw [h0]; show t.val * 5000 + 1 * p.val = t.val * 5000 + p.val; omega)
    | ⟨1, _⟩ => exact (col_aggregate t p j).trans (by rw [h1]; show 0 * 128 + 1 * j.val = j.val; omega))))

/-- The block of the weights1 at any point is the whole matrix. -/
theorem read_weights1 (j k : Fin 128) :
    View.read (Elt Ideal) ((cfg0.win 2).blk t).view (W (Pipeline.arrRef spec0 2)) (ix2 j k)
      = W main_v10 (((cfg0.win 2).blk t).view.emb (ix2 j k)) := rfl
theorem row_weights1 (j k : Fin 128) :
    ((((cfg0.win 2).blk t).view.emb (ix2 j k)) (0 : Fin 2)).val = win0_2.index t (0 : Fin 2) * 128 + 1 * j.val := rfl
theorem col_weights1 (j k : Fin 128) :
    ((((cfg0.win 2).blk t).view.emb (ix2 j k)) (1 : Fin 2)).val = win0_2.index t (1 : Fin 2) * 128 + 1 * k.val := rfl

theorem weights1_at (j k : Fin 128) (h0 : win0_2.index t (0 : Fin 2) = 0) (h1 : win0_2.index t (1 : Fin 2) = 0) :
    View.read (Elt Ideal) ((cfg0.win 2).blk t).view (W (Pipeline.arrRef spec0 2)) (ix2 j k) = W main_v10 (ix2 j k) :=
  (read_weights1 c W t j k).trans (congrArg (W main_v10) (funext fun a => Fin.ext (by
    match a with
    | ⟨0, _⟩ => exact (row_weights1 t j k).trans (by rw [h0]; show 0 * 128 + 1 * j.val = j.val; omega)
    | ⟨1, _⟩ => exact (col_weights1 t j k).trans (by rw [h1]; show 0 * 128 + 1 * k.val = k.val; omega))))

/-- The block of the bias1 at any point is the whole row. -/
theorem read_bias1 (k : Fin 128) :
    View.read (Elt Ideal) ((cfg0.win 3).blk t).view (W (Pipeline.arrRef spec0 3)) (ix2 (0 : Fin 1) k)
      = W main_v12 (((cfg0.win 3).blk t).view.emb (ix2 (0 : Fin 1) k)) := rfl
theorem row_bias1 (k : Fin 128) :
    ((((cfg0.win 3).blk t).view.emb (ix2 (0 : Fin 1) k)) (0 : Fin 2)).val = win0_3.index t (0 : Fin 2) * 1 + 1 * (0 : Fin 1).val := rfl
theorem col_bias1 (k : Fin 128) :
    ((((cfg0.win 3).blk t).view.emb (ix2 (0 : Fin 1) k)) (1 : Fin 2)).val = win0_3.index t (1 : Fin 2) * 128 + 1 * k.val := rfl

theorem bias1_at (k : Fin 128) (h0 : win0_3.index t (0 : Fin 2) = 0) (h1 : win0_3.index t (1 : Fin 2) = 0) :
    View.read (Elt Ideal) ((cfg0.win 3).blk t).view (W (Pipeline.arrRef spec0 3)) (ix2 (0 : Fin 1) k) = W main_v12 (ix2 (0 : Fin 1) k) :=
  (read_bias1 c W t k).trans (congrArg (W main_v12) (funext fun a => Fin.ext (by
    match a with
    | ⟨0, _⟩ => exact (row_bias1 t k).trans (by rw [h0]; show 0 * 1 + 1 * (0 : Fin 1).val = (0 : Fin 1).val; simp)
    | ⟨1, _⟩ => exact (col_bias1 t k).trans (by rw [h1]; show 0 * 128 + 1 * k.val = k.val; omega))))

/-- The block of the weights2 at any point is the whole matrix. -/
theorem read_weights2 (j k : Fin 128) :
    View.read (Elt Ideal) ((cfg0.win 4).blk t).view (W (Pipeline.arrRef spec0 4)) (ix2 j k)
      = W main_v11 (((cfg0.win 4).blk t).view.emb (ix2 j k)) := rfl
theorem row_weights2 (j k : Fin 128) :
    ((((cfg0.win 4).blk t).view.emb (ix2 j k)) (0 : Fin 2)).val = win0_4.index t (0 : Fin 2) * 128 + 1 * j.val := rfl
theorem col_weights2 (j k : Fin 128) :
    ((((cfg0.win 4).blk t).view.emb (ix2 j k)) (1 : Fin 2)).val = win0_4.index t (1 : Fin 2) * 128 + 1 * k.val := rfl

theorem weights2_at (j k : Fin 128) (h0 : win0_4.index t (0 : Fin 2) = 0) (h1 : win0_4.index t (1 : Fin 2) = 0) :
    View.read (Elt Ideal) ((cfg0.win 4).blk t).view (W (Pipeline.arrRef spec0 4)) (ix2 j k) = W main_v11 (ix2 j k) :=
  (read_weights2 c W t j k).trans (congrArg (W main_v11) (funext fun a => Fin.ext (by
    match a with
    | ⟨0, _⟩ => exact (row_weights2 t j k).trans (by rw [h0]; show 0 * 128 + 1 * j.val = j.val; omega)
    | ⟨1, _⟩ => exact (col_weights2 t j k).trans (by rw [h1]; show 0 * 128 + 1 * k.val = k.val; omega))))

/-- The block of the bias2 at any point is the whole row. -/
theorem read_bias2 (k : Fin 128) :
    View.read (Elt Ideal) ((cfg0.win 5).blk t).view (W (Pipeline.arrRef spec0 5)) (ix2 (0 : Fin 1) k)
      = W main_v13 (((cfg0.win 5).blk t).view.emb (ix2 (0 : Fin 1) k)) := rfl
theorem row_bias2 (k : Fin 128) :
    ((((cfg0.win 5).blk t).view.emb (ix2 (0 : Fin 1) k)) (0 : Fin 2)).val = win0_5.index t (0 : Fin 2) * 1 + 1 * (0 : Fin 1).val := rfl
theorem col_bias2 (k : Fin 128) :
    ((((cfg0.win 5).blk t).view.emb (ix2 (0 : Fin 1) k)) (1 : Fin 2)).val = win0_5.index t (1 : Fin 2) * 128 + 1 * k.val := rfl

theorem bias2_at (k : Fin 128) (h0 : win0_5.index t (0 : Fin 2) = 0) (h1 : win0_5.index t (1 : Fin 2) = 0) :
    View.read (Elt Ideal) ((cfg0.win 5).blk t).view (W (Pipeline.arrRef spec0 5)) (ix2 (0 : Fin 1) k) = W main_v13 (ix2 (0 : Fin 1) k) :=
  (read_bias2 c W t k).trans (congrArg (W main_v13) (funext fun a => Fin.ext (by
    match a with
    | ⟨0, _⟩ => exact (row_bias2 t k).trans (by rw [h0]; show 0 * 1 + 1 * (0 : Fin 1).val = (0 : Fin 1).val; simp)
    | ⟨1, _⟩ => exact (col_bias2 t k).trans (by rw [h1]; show 0 * 128 + 1 * k.val = k.val; omega))))

end Cert.GinMlp.Blocks

end
-- ==== Proof.KernelArray.lean ====
/-
  From the blocks the kernel writes back to its whole result array.

  The grid has twenty points. Point `t` reads rows `5000 t … 5000 t + 4999` of the features and of the aggregate,
  reads the weight matrices and bias rows whole, and writes back the same rows of the result. By the entry formula of
  the body, what point `t` writes is therefore the restriction to its rows of ONE function of the arrays as the
  region finds them: the perceptron applied row by row. The twenty blocks tile the hundred thousand rows (row `r` is
  in block `r / 5000`), so after the run the result array is that function.
-/
import proofs.«131151_j69123203662130_2_alg».proof.Proof.Gen.KernelIdeal.Value
import proofs.«131151_j69123203662130_2_alg».proof.Proof.Body
import proofs.«131151_j69123203662130_2_alg».proof.Proof.Blocks

noncomputable section

namespace Cert.GinMlp.KernelArray

open Cert.KernelIdeal Cert.KernelIdeal.Gen Idealize.ShloMosaic Idealize.ShloMosaic.TcCoe Idealize.SL.Sem
open Idealize.ShloMosaic.Pipeline (Dat)
open Idealize.ShloMosaic.ValueIdx Cert.GinMlp

variable (m : (ℓ : Loc nD τ sig) → Buf (Elt Ideal) ℓ) (ρ : Dev nD → PrngReg)

theorem zero_offsets : (![0, 0] : Fin 2 → Nat) = fun _ => 0 := funext fun a => by fin_cases a <;> rfl

/-- The result array as one function of the arrays the region finds: the perceptron, row by row, of the features and
    the aggregate, with the weight matrices as staged and each bias read along its one row. -/
def whole (c : Dev nD) : S100000x128.Idx → EReal :=
  out (V m c main_arg0 : S100000x128.Idx → EReal) (V m c main_v9 : S100000x128.Idx → EReal)
    (V m c main_v10 : S128x128.Idx → EReal) (V m c main_v11 : S128x128.Idx → EReal)
    (fun k => (V m c main_v12 : S1x128.Idx → EReal) (ix2 (0 : Fin 1) k))
    (fun k => (V m c main_v13 : S1x128.Idx → EReal) (ix2 (0 : Fin 1) k))

/-- The printed index maps, decided over the twenty points: the row-blocked windows (features, aggregate, result) are at
    block `t` of the rows and block 0 of the columns; the four whole windows stay at block (0, 0). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- WHAT POINT `t` WRITES BACK is block `t` of `whole`. -/
theorem flushed_eq (c : Dev nD) (t : Fin cfg0.N) :
    (dats m 0 c).flushed 6 t = ((cfg0.win 6).blk t).view.read (Elt Ideal) (whole m c) := by
  rw [Cert.KernelIdeal.Value.flushed6]
  unfold out0_6
  rw [View.canon_unit_zero zero_offsets]
  simp only [View.ld_unit_zero (S := S5000x128) zero_offsets, View.ld_unit_zero (S := S128x128) zero_offsets,
    View.ld_unit_zero (S := S1x128) zero_offsets]
  obtain ⟨a00, a01, a10, a11, a20, a21, a30, a31, a40, a41, a50, a51, a60, a61⟩ := block_indices t
  have ht : t.val < 20 := by have h := t.isLt; have hN : cfg0.N = 20 := N_0; omega
  funext y
  obtain ⟨p, q, rfl⟩ : ∃ (p : Fin 5000) (q : Fin 128), y = ix2 p q := ⟨y 0, y 1, eq_ix2 y⟩
  have hp : p.val < 5000 := p.isLt
  have hq : q.val < 128 := q.isLt
  have hr : t.val * 5000 + p.val < 100000 := by omega
  show k0_pay1 (iblk m c 0 t) (iblk m c 1 t) (iblk m c 2 t) (iblk m c 3 t) (iblk m c 4 t) (iblk m c 5 t) (ix2 p q)
    = whole m c (((cfg0.win 6).blk t).view.emb (ix2 p q))
  have he : ((cfg0.win 6).blk t).view.emb (ix2 p q) = ix2 (⟨t.val * 5000 + p.val, hr⟩ : Fin 100000) q := by
    funext a; apply Fin.ext
    match a with
    | ⟨0, _⟩ => show win0_6.index t (0 : Fin 2) * 5000 + 1 * p.val = t.val * 5000 + p.val; omega
    | ⟨1, _⟩ => show win0_6.index t (1 : Fin 2) * 128 + 1 * q.val = q.val; omega
  refine Eq.trans ?_ (congrArg (whole m c) he).symm
  unfold whole
  refine Body.block_entry (V m c main_arg0 : S100000x128.Idx → EReal) (V m c main_v9 : S100000x128.Idx → EReal)
    (V m c main_v10 : S128x128.Idx → EReal) (V m c main_v11 : S128x128.Idx → EReal)
    (V m c main_v12 : S1x128.Idx → EReal) (V m c main_v13 : S1x128.Idx → EReal)
    (iblk m c 0 t) (iblk m c 1 t) (iblk m c 2 t) (iblk m c 3 t) (iblk m c 4 t) (iblk m c 5 t) p q ⟨t.val * 5000 + p.val, hr⟩
    ?_ ?_ ?_ ?_ ?_ ?_
  · intro j; unfold iblk; generalize V m c = W; exact Blocks.features_at c W t p j a00 a01 hr
  · intro j; unfold iblk; generalize V m c = W; exact Blocks.aggregate_at c W t p j a10 a11 hr
  · intro j k; unfold iblk; generalize V m c = W; exact Blocks.weights1_at c W t j k a20 a21
  · intro k; unfold iblk; generalize V m c = W; exact Blocks.bias1_at c W t k a30 a31
  · intro j k; unfold iblk; generalize V m c = W; exact Blocks.weights2_at c W t j k a40 a41
  · intro k; unfold iblk; generalize V m c = W; exact Blocks.bias2_at c W t k a50 a51

/-- An index of the result array is in point `t`'s block iff each coordinate is in the block's range on its axis. -/
theorem mem_blk (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v14).slice (win0_6.rect t)).set ↔ _
  rw [View.set_slice_whole, Rect.mem_set_unit]
  exact Iff.rfl

/-- Every row is in the block of the point `row / 5000`. -/
theorem covered (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_6 _, ?_⟩
  rw [mem_blk]
  obtain ⟨-, -, -, -, -, -, -, -, -, -, -, -, a60, a61⟩ := block_indices ⟨(i 0).val / 5000, by rw [hN]; omega⟩
  intro a
  match a with
  | ⟨0, _⟩ =>
    show win0_6.index ⟨(i 0).val / 5000, _⟩ (0 : Fin 2) * 5000 ≤ (i 0).val ∧ (i 0).val < win0_6.index ⟨(i 0).val / 5000, _⟩ (0 : Fin 2) * 5000 + 5000
    rw [a60]; show (i 0).val / 5000 * 5000 ≤ (i 0).val ∧ (i 0).val < (i 0).val / 5000 * 5000 + 5000; omega
  | ⟨1, _⟩ =>
    show win0_6.index ⟨(i 0).val / 5000, _⟩ (1 : Fin 2) * 128 ≤ (i 1).val ∧ (i 1).val < win0_6.index ⟨(i 0).val / 5000, _⟩ (1 : Fin 2) * 128 + 128
    rw [a61]; omega

/-- THE RESULT ARRAY after the run is `whole`. -/
theorem final (c : Dev nD) : (dats m 0 c).arrAt 6 cfg0.N = whole m c :=
  (dats m 0 c).arrAt_eq_of_cover 6 (whole m c) (fun t _ => flushed_eq m c t) covered

end Cert.GinMlp.KernelArray

end
-- ==== Proof.KernelHost.lean ====
/-
  The arrays the kernel's region finds, as terms of the program's arguments.

  Before the region the host computes the aggregate (a gather of the source rows and a scatter-add onto the
  destination rows, into zeros), changes the format of the two weight matrices — the identity at the ideal instance —
  and gives each bias a leading unit axis. So the region finds: the features as launched; the aggregate; the two weight
  matrices as launched; each bias with `(0, k)` reading its entry `k`.
-/
import proofs.«131151_j69123203662130_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout

noncomputable section

namespace Cert.GinMlp.KernelHost

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The aggregate as the kernel's program computes it: row `edge_src e` (a negative source counted from the end) of
    the features gathered for every edge `e`, then added onto row `edge_dst e` of zeros. -/
def agg (x0 : (⟨S100000x128, .f32⟩ : BufTy).Contents (Elt Ideal)) (x5 x6 : (⟨S1600000, .i32⟩ : BufTy).Contents (Elt Ideal)) :
    (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 x6)
    (Host.gather gather_S100000x128_S1600000x1_S1600000x128_1_0_n_n_0_1_1128 x0
      (broadcastInDim S1600000x1 ![0] bcast_S1600000_S1600000x1_0
        (select (cmpi .slt x5 (broadcastInDim S1600000 ![] bcast_S_S1600000 (constantI S_ 32 0#32)))
          (addi x5 (broadcastInDim S1600000 ![] bcast_S_S1600000 (constantI S_ 32 100000#32))) x5)))

/-- The region finds the aggregate of the launched features and edge lists. -/
theorem V_agg (c : Dev nD) : (V m c main_v9 : S100000x128.Idx → EReal)
    = agg (m ((c : Thread nD τ).loc main_arg0)) (m ((c : Thread nD τ).loc main_arg5)) (m ((c : Thread nD τ).loc main_arg6)) := by
  dsimp only [V, hostOps0]; after_results; rfl

/-- The region finds the first weight matrix as launched (its change of format is the identity). -/
theorem V_w1 (c : Dev nD) : (V m c main_v10 : S128x128.Idx → EReal) = m ((c : Thread nD τ).loc main_arg1) := by
  dsimp only [V, hostOps0]; after_results; rfl

/-- The region finds the second weight matrix as launched. -/
theorem V_w2 (c : Dev nD) : (V m c main_v11 : S128x128.Idx → EReal) = m ((c : Thread nD τ).loc main_arg3) := by
  dsimp only [V, hostOps0]; after_results; rfl

/-- The region finds the first bias with a leading unit axis. -/
theorem V_b1 (c : Dev nD) : (V m c main_v12 : S1x128.Idx → EReal)
    = shapeCast S1x128 (m ((c : Thread nD τ).loc main_arg2) : S128.Idx → EReal) shapeCasts_S128_S1x128 := by
  dsimp only [V, hostOps0]; after_results; rfl

/-- The region finds the second bias with a leading unit axis. -/
theorem V_b2 (c : Dev nD) : (V m c main_v13 : S1x128.Idx → EReal)
    = shapeCast S1x128 (m ((c : Thread nD τ).loc main_arg4) : S128.Idx → EReal) shapeCasts_S128_S1x128 := by
  dsimp only [V, hostOps0]; after_results; rfl

/-- A bias with a leading unit axis, read at `(0, k)`, is its entry `k`. -/
theorem bias_row (b : S128.Idx → EReal) (k : Fin 128) :
    shapeCast S1x128 b shapeCasts_S128_S1x128 (ix2 (0 : Fin 1) k) = b (ix1 k) :=
  shapeCast_a_1a_apply b shapeCasts_S128_S1x128 (0 : Fin 1) k

end Cert.GinMlp.KernelHost

end
-- ==== Proof.RefValue.lean ====
/-
  The reference's result is the same perceptron, row by row.

  The reference computes the aggregate on the host, forms `1 · X + agg`, multiplies by the first weight matrix, adds the
  first bias along the rows, takes the maximum with zero, multiplies by the second weight matrix and adds the second bias.
  Read at entry (r, q), each product is the sum over the shared axis of row times column, and each spread bias reads its
  column: the entry is the perceptron of row `r` of the features and of the aggregate.
-/
import proofs.«131151_j69123203662130_2_alg».proof.Proof.Gen.ReferenceIdeal.Read
import proofs.«131151_j69123203662130_2_alg».proof.Proof.Mlp

noncomputable section

namespace Cert.GinMlp.Reference

open Cert.ReferenceIdeal Cert.ReferenceIdeal.Gen Cert.ReferenceIdeal.Read
open Idealize.ShloMosaic Idealize.ShloMosaic.ValueIdx Cert.GinMlp

/-- THE REFERENCE'S RESULT is `out` of its arguments and of the aggregate it computes. -/
theorem result_eq (x0 : (⟨S100000x128, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal))
    (x4 : (⟨S128, .f32⟩ : BufTy).Contents (Elt Ideal)) (x5 x6 : (⟨S1600000, .i32⟩ : BufTy).Contents (Elt Ideal)) :
    val_main_v21 (F := Ideal) x0 x1 x2 x3 x4 x5 x6
      = out x0 (val_main_v9 (F := Ideal) x0 x5 x6) x1 x3 (fun k => x2 (ix1 k)) (fun k => x4 (ix1 k)) := by
  funext i
  obtain ⟨r, q, rfl⟩ : ∃ (r : Fin 100000) (q : Fin 128), i = ix2 r q := ⟨i 0, i 1, eq_ix2 i⟩
  rw [out_apply]
  unfold mlpRow
  have i1 : idx_main_v19 (idx_main_v20 (ix2 r q)) = ix1 q :=
    funext fun a => Fin.ext (by match a with | ⟨0, _⟩ => rfl)
  rw [val_main_v21_apply, val_main_v18_apply, val_main_v20_apply, val_main_v19_apply, i1]
  refine congrArg (· + x4 (ix1 q)) (Finset.sum_congr rfl fun k _ => ?_)
  have i2 : ridx_main_v18 (ix2 r q) k = ix2 k q :=
    funext fun a => Fin.ext (by match a with | ⟨0, _⟩ => rfl | ⟨1, _⟩ => rfl)
  have i3 : lidx_main_v18 (ix2 r q) k = ix2 r k :=
    funext fun a => Fin.ext (by match a with | ⟨0, _⟩ => rfl | ⟨1, _⟩ => rfl)
  rw [i2, i3]
  refine congrArg (· * x3 (ix2 k q)) ?_
  have i4 : idx_main_v14 (idx_main_v15 (ix2 r k)) = ix1 k :=
    funext fun a => Fin.ext (by match a with | ⟨0, _⟩ => rfl)
  rw [val_main_v17_apply, val_main_v16_apply, val_main_v13_apply, val_main_v15_apply, val_main_v14_apply,
    val_main_call0_v0_apply, val_main_call0_cst_apply, i4]
  refine congrArg (fun s => max (s + x2 (ix1 k)) zero) (Finset.sum_congr rfl fun j _ => ?_)
  have i5 : lidx_main_v13 (ix2 r k) j = ix2 r j :=
    funext fun a => Fin.ext (by match a with | ⟨0, _⟩ => rfl | ⟨1, _⟩ => rfl)
  have i6 : ridx_main_v13 (ix2 r k) j = ix2 j k :=
    funext fun a => Fin.ext (by match a with | ⟨0, _⟩ => rfl | ⟨1, _⟩ => rfl)
  rw [i5, i6, val_main_v12_apply, val_main_v11_apply, val_main_v10_apply, val_main_cst_1_apply]
  rfl

end Cert.GinMlp.Reference

end
-- ==== Proof.Bridge.lean ====
/-
  The two results are one function of the arguments.

  The kernel's result array is the perceptron, row by row, of the arrays its region finds; those are the launched
  features, the aggregate the host computed from the launched features and edge lists, the launched weight matrices
  (their change of format is the identity on the extended reals) and the launched biases (read through a leading unit
  axis). The reference's result is the same perceptron of its arguments and of the aggregate it computes. The two
  programs compute the aggregate by the same host operations — the same gather of source rows, the same scatter-add onto
  destination rows of zeros — so the two aggregates are the same term, and no property of the gather or of the
  scatter-add is used.
-/
import proofs.«131151_j69123203662130_2_alg».proof.Proof.KernelArray
import proofs.«131151_j69123203662130_2_alg».proof.Proof.KernelHost
import proofs.«131151_j69123203662130_2_alg».proof.Proof.RefValue

noncomputable section

namespace Cert.GinMlp.Bridge

open Idealize.ShloMosaic Idealize.ShloMosaic.TcCoe Idealize.SL.Sem Idealize.ShloMosaic.ValueIdx Cert.GinMlp

/-- The aggregate the reference computes is the aggregate the kernel's program computes: the same operations, spelt in
    each program's own vocabulary. -/
theorem agg_eq (x0 : (⟨2, ![100000, 128]⟩ : Shape).Idx → EReal) (x5 x6 : (⟨1, ![1600000]⟩ : Shape).Idx → BitVec 32) :
    Cert.ReferenceIdeal.Read.val_main_v9 (F := Ideal) x0 x5 x6 = KernelHost.agg x0 x5 x6 := rfl

section
open Cert.KernelIdeal Cert.KernelIdeal.Gen

variable (m : (ℓ : Loc nD τ sig) → Buf (Elt Ideal) ℓ)

/-- THE KERNEL'S RESULT ARRAY as a function of the launched arguments. -/
theorem kernel_result (c : Dev nD) :
    KernelArray.whole m c
      = out (m ((c : Thread nD τ).loc main_arg0))
          (KernelHost.agg (m ((c : Thread nD τ).loc main_arg0)) (m ((c : Thread nD τ).loc main_arg5)) (m ((c : Thread nD τ).loc main_arg6)))
          (m ((c : Thread nD τ).loc main_arg1)) (m ((c : Thread nD τ).loc main_arg3))
          (fun k => (m ((c : Thread nD τ).loc main_arg2) : S128.Idx → EReal) (ix1 k))
          (fun k => (m ((c : Thread nD τ).loc main_arg4) : S128.Idx → EReal) (ix1 k)) := by
  unfold KernelArray.whole
  rw [V_main_arg0, KernelHost.V_agg, KernelHost.V_w1, KernelHost.V_w2, KernelHost.V_b1, KernelHost.V_b2]
  exact congr (congrArg (out _ _ _ _) (funext fun k => KernelHost.bias_row _ k)) (funext fun k => KernelHost.bias_row _ k)

end

end Cert.GinMlp.Bridge

end
-- ==== Proof.lean ====
/-
  The certificate of a graph-isomorphism layer: neighbour-sum aggregation followed by a two-layer perceptron.

  Both programs first aggregate on the host: for every edge the source node's feature row is gathered, and the rows are
  added onto the destination nodes, starting from zeros. Both then apply, to each node `r`,

      out[r, q] = (∑ k, max ((∑ j, (1 · X[r, j] + agg[r, j]) · W₁[j, k]) + b₁[k]) 0 · W₂[k, q]) + b₂[q] .

  The reference does this with two host matrix products; the kernel does it in a grid of twenty blocks of 5000 rows,
  rounding the operands of each product to a shorter format and using the matrix unit. On the extended reals the
  roundings are the identity and a matrix-unit product into a zero accumulator is the host's product, so block by block
  the kernel writes the restriction of the same function; the blocks tile the rows. No algebraic law beyond that is
  needed — the two sides are the same sums in the same arrangement — and so the finiteness of the inputs is never used.

  The modules: `Mlp` states the perceptron; `Body` reads the kernel body's store at an entry; `KernelArray` assembles
  the blocks into the whole array; `KernelHost` reads what the host operations before the region leave; `RefValue`
  reads the reference's result at an entry; `Bridge` identifies the two. The frames of the two kernel programs and the
  run of the reference are the generated ones.
-/
import proofs.«131151_j69123203662130_2_alg».proof.Defs
import proofs.«131151_j69123203662130_2_alg».proof.Proof.Gen.Kernel
import proofs.«131151_j69123203662130_2_alg».proof.Proof.Gen.Kernel.Frame
import proofs.«131151_j69123203662130_2_alg».proof.Proof.Gen.KernelIdeal
import proofs.«131151_j69123203662130_2_alg».proof.Proof.Gen.KernelIdeal.Frame
import proofs.«131151_j69123203662130_2_alg».proof.Proof.Gen.KernelIdeal.Value
import proofs.«131151_j69123203662130_2_alg».proof.Proof.Gen.ReferenceIdeal
import proofs.«131151_j69123203662130_2_alg».proof.Proof.Gen.ReferenceIdeal.Run
import proofs.«131151_j69123203662130_2_alg».proof.Proof.Gen.ReferenceIdeal.Read
import proofs.«131151_j69123203662130_2_alg».proof.Proof.Gen.Pre_finite_inputs
import proofs.«131151_j69123203662130_2_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.ValueIdx Cert.GinMlp

/-- The word-level kernel program runs and keeps its arguments: the generated frame. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- The reference runs and keeps its arguments: its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the perceptron, row by row, of the features and of
    the aggregate of the features along the edges. -/
theorem algebraic : Cert.algebraic_KernelIdeal_ReferenceIdeal := by
  intro m ρ m' ρ' _ hagree
  refine ⟨fun c => out (m ((c.tc : Thread Cert.KernelIdeal.nD Cert.KernelIdeal.τ).loc Cert.KernelIdeal.main_arg0))
      (KernelHost.agg (m ((c.tc : Thread Cert.KernelIdeal.nD Cert.KernelIdeal.τ).loc Cert.KernelIdeal.main_arg0))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6)))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (fun k => (m ((c.tc : Thread Cert.KernelIdeal.nD Cert.KernelIdeal.τ).loc Cert.KernelIdeal.main_arg2) : Cert.KernelIdeal.S128.Idx → EReal) (ix1 k))
      (fun k => (m ((c.tc : Thread Cert.KernelIdeal.nD Cert.KernelIdeal.τ).loc Cert.KernelIdeal.main_arg4) : Cert.KernelIdeal.S128.Idx → EReal) (ix1 k)),
    ?_, ?_⟩
  · exact (θ_run Cert.KernelIdeal.defs _ _).mono
      (fun r h c => ⟨(h c).1.trans ((KernelArray.final m c).trans (Bridge.kernel_result m c)), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v21_eq, Reference.result_eq, Bridge.agg_eq,
      (hagree c).1, (hagree c).2.1, (hagree c).2.2.1, (hagree c).2.2.2.1, (hagree c).2.2.2.2.1,
      (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
